-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S4096x512 : Shape := ⟨2, ![4096, 512]⟩
abbrev S512x512 : Shape := ⟨2, ![512, 512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S4096x512, .f32⟩
  | .local _ .vmem, ⟨1, _⟩ => ⟨S4096x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S4096x512, .f32⟩
  | .local _ .vmem, ⟨7, _⟩ => ⟨S4096x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2048_S1x2048 : S2048.ShapeCasts S1x2048
  inb_S4096x512_S4096x512_0_0 : ∀ a, (![0, 0] : Fin 2 → Nat) a + S4096x512.size a ≤ S4096x512.size a
  h_S4096x512 : 0 < S4096x512.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  dot_S4096x512_S512x512_S4096x512_1_1_0_0_n_n_wf : DotDims.WF S4096x512 S512x512 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S8192x2048.size a
  hwx0_0 : ∀ i : grid0.Coords, EltTy.bits .f32 = 32 ∨ (Rect.block (s := S8192x2048) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .f32 = 32 ∨ (Rect.block (s := S2048x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S8192x2048.size a
  hwx0_3 : ∀ i : grid0.Coords, EltTy.bits .f32 = 32 ∨ (Rect.block (s := S8192x2048) S4096x512.size (cc0_transform_3 i) (hinb0_3 i)).WholeWords (EltTy.packing .f32)

variable [Facts₀]

def dot_S4096x512_S512x512_S4096x512_1_1_0_0_n_n : DotDims S4096x512 S512x512 S4096x512 where
  lhsContracting := [1]
  rhsContracting := [1]
  lhsNonContracting := [0]
  rhsNonContracting := [0]
  lhsBatch := []
  rhsBatch := []
  wf := dot_S4096x512_S512x512_S4096x512_1_1_0_0_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048, .i32⟩
  | .hbm, ⟨4, _⟩ => ⟨S_, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .i32⟩
  | .hbm, ⟨41, _⟩ => ⟨S2048x1, .i32⟩
  | .hbm, ⟨42, _⟩ => ⟨S1x2048, .i32⟩
  | .hbm, ⟨43, _⟩ => ⟨S2048x2048, .i32⟩
  | .hbm, ⟨44, _⟩ => ⟨S2048x2048, .i32⟩
  | .hbm, ⟨45, _⟩ => ⟨S2048x2048, .i1⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S8192x2048, .f32⟩
  | .hbm, ⟨50, _⟩ => ⟨S1x2048, .f32⟩
  | .hbm, ⟨51, _⟩ => ⟨S8192x2048, .f32⟩
  | .hbm, ⟨52, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  transposes_S2048x2048_S2048x2048_1_0 : S2048x2048.Transposes [1, 0] S2048x2048
  bcast_S1x2048_S8192x2048_0_1 : S1x2048.BroadcastsInDim S8192x2048 (![0, 1] : Fin 2 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.KernelPay.lean ====
/-
  What the kernel body stores, at one entry of its output block.

  At a grid point the body loads a 4096×512 block `X` of the input, the 512×512 diagonal tile `T` of the weight and a
  1×512 piece `β` of the bias, and stores `X · Tᵀ + β` (the product contracts the SECOND axis of both operands, so no
  transpose is materialized; the bias row is laid along every row). At the ideal values entry (p, q) of the stored block is
    ∑_{k < 512} X[p, k] · T[q, k] + β[0, q].
-/
import proofs.«166792_j74938589381030_2_alg».proof.Proof.Gen.KernelIdeal.Skeleton
import proofs.«166792_j74938589381030_2_alg».proof.Proof.LibContract
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx

/-- The product's dimension numbers: rows of the left operand against rows of the right one. -/
abbrev dotD : DotDims S4096x512 S512x512 S4096x512 := dot_S4096x512_S512x512_S4096x512_1_1_0_0_n_n

/-- At output entry (p, q) and contraction coordinate i the left operand is read at (p, i) … -/
theorem lhs_idx (p : Fin 4096) (q i : Fin 512) :
    dotD.lhsIdx (ix2 p q) ((contrEquiv1 dotD 512 rfl rfl).symm i) = ix2 p i := by
  funext a
  apply Fin.ext
  match a with
  | ⟨0, _⟩ => rfl
  | ⟨1, _⟩ => exact (dotD.lhsIdx_val_of_single (cl := (1 : Fin 2)) rfl _ _).trans (contrEquiv1_symm_val dotD 512 rfl rfl i)

/-- … and the right operand at (q, i): its rows are the output's columns. -/
theorem rhs_idx (p : Fin 4096) (q i : Fin 512) :
    dotD.rhsIdx (ix2 p q) ((contrEquiv1 dotD 512 rfl rfl).symm i) = ix2 q i := by
  funext a
  apply Fin.ext
  match a with
  | ⟨0, _⟩ => rfl
  | ⟨1, _⟩ => exact (dotD.rhsIdx_val_of_single (cr := (1 : Fin 2)) rfl _ _).trans (contrEquiv1_symm_val dotD 512 rfl rfl i)

/-- The stored value at entry (p, q): the row-by-row product plus the bias entry of column q. -/
theorem pay_apply (v0 : FVec Ideal S4096x512 .f32) (v1 : FVec Ideal S512x512 .f32) (v3 : FVec Ideal S1x512 .f32)
    (p : Fin 4096) (q : Fin 512) :
    k0_pay1 (F := Ideal) v0 v1 v3 (ix2 p q) = (∑ k : Fin 512, v0 (ix2 p k) * v1 (ix2 q k)) + v3 (ix2 (0 : Fin 1) q) := by
  have hm : FloatOps.matmul (F := Ideal) dotD (some .fp32) v0 v1 (constant (F := Ideal) S4096x512 .f32 0x00000000#32) (ix2 p q)
      = ∑ k : Fin 512, v0 (ix2 p k) * v1 (ix2 q k) :=
    ContractSingle.matmul_zero_single dotD (some .fp32) 512 rfl rfl v0 v1 (ix2 p q) _ _
      (fun i => congrArg v0 (lhs_idx p q i)) (fun i => congrArg v1 (rhs_idx p q i))
  have hb : broadcastTo S4096x512 (shapeCast S1x512 v3 shapeCasts_S1x512_S1x512) broadcasts_S1x512_S4096x512 (ix2 p q)
      = v3 (ix2 (0 : Fin 1) q) := by
    rw [shapeCast_self]
    exact broadcastTo_apply v3 _ (ix2 p q) (ix2 (0 : Fin 1) q) (fun a => by
      match a with
      | ⟨0, _⟩ => rfl
      | ⟨1, _⟩ => rfl)
  exact congrArg₂ (· + ·) hm hb

end Cert.KernelIdeal.Hand

end
-- ==== Proof.Spec.lean ====
/-
  The specification and the one law that joins the two programs.

  Both programs compute, for a row n and an output feature o lying in block k = ⌊o / 512⌋ of four,
    out[n, o] = ∑_{j < 512} x[n, 512·k + j] · W[o, 512·k + j] + b[o].
  The kernel computes exactly this sum, block by block. The reference sums over ALL 2048 input features with every term
  outside block k multiplied by a mask entry 0 and every term inside it by 1. On the extended reals a product with 0
  is 0 and a product with 1 is the factor itself, whatever the other factor (no finiteness is needed), so the long
  sum keeps only the 512 terms of block k (`masked_dot`).
-/
import Idealize.ShloMosaic.PureOps.Ideal
import Idealize.ShloMosaic.Lib.ValueIdx

noncomputable section

namespace BlockDiag

open Idealize.ShloMosaic Idealize.ShloMosaic.ValueIdx

/-- Feature `j` of block `k`: the feature number 512·k + j. -/
def inBlock (k : Fin 4) (j : Fin 512) : Fin 2048 := ⟨512 * k.val + j.val, by have := k.isLt; have := j.isLt; omega⟩

/-- The block a feature lies in: ⌊i / 512⌋. -/
def blockOf (i : Fin 2048) : Fin 4 := ⟨i.val / 512, by have := i.isLt; omega⟩

theorem blockOf_inBlock (k : Fin 4) (j : Fin 512) : blockOf (inBlock k j) = k := by
  apply Fin.ext
  show (512 * k.val + j.val) / 512 = k.val
  have := j.isLt
  omega

/-- The 2048 features are the four blocks of 512, side by side. -/
def blockEquiv : Fin 4 × Fin 512 ≃ Fin 2048 where
  toFun p := inBlock p.1 p.2
  invFun i := (blockOf i, ⟨i.val % 512, Nat.mod_lt _ (by decide)⟩)
  left_inv := by
    rintro ⟨k, j⟩
    have hj := j.isLt
    refine Prod.ext (blockOf_inBlock k j) (Fin.ext ?_)
    show (512 * k.val + j.val) % 512 = j.val
    omega
  right_inv := by
    intro i
    apply Fin.ext
    show 512 * (i.val / 512) + i.val % 512 = i.val
    omega

/-- A sum over the 2048 features of terms that vanish outside block `k` is the sum over block `k`'s 512 features. -/
theorem sum_block (f : Fin 2048 → EReal) (k : Fin 4) :
    ∑ i : Fin 2048, (if blockOf i = k then f i else 0) = ∑ j : Fin 512, f (inBlock k j) := by
  rw [← Equiv.sum_comp blockEquiv, Fintype.sum_prod_type]
  rw [Finset.sum_eq_single k]
  · refine Finset.sum_congr rfl fun j _ => ?_
    show (if blockOf (inBlock k j) = k then f (inBlock k j) else 0) = _
    rw [if_pos (blockOf_inBlock k j)]
  · intro k' _ hk'
    refine Finset.sum_eq_zero fun j _ => ?_
    show (if blockOf (inBlock k' j) = k then f (inBlock k' j) else 0) = _
    rw [blockOf_inBlock, if_neg hk']
  · intro h; exact absurd (Finset.mem_univ k) h

/-- The masked dense product is the block's own product: each term of the long sum carries a mask factor that is 1 inside
    block `k` and 0 outside it; on the extended reals `a · (w · 1) = a · w` and `a · (w · 0) = 0` for every `a`, `w`. -/
theorem masked_dot (xr wr : Fin 2048 → EReal) (k : Fin 4) :
    ∑ i : Fin 2048, xr i * (wr i * (if blockOf i = k then (1 : EReal) else 0))
      = ∑ j : Fin 512, xr (inBlock k j) * wr (inBlock k j) := by
  rw [← sum_block (fun i => xr i * wr i) k]
  refine Finset.sum_congr rfl fun i _ => ?_
  by_cases h : blockOf i = k
  · rw [if_pos h, if_pos h, mul_one]
  · rw [if_neg h, if_neg h, mul_zero, mul_zero]

/-- The common value at row `n`, output feature `o`: the product over `o`'s own block of features, plus the bias. -/
def outAt (x : (⟨2, ![8192, 2048]⟩ : Shape).Idx → EReal) (W : (⟨2, ![2048, 2048]⟩ : Shape).Idx → EReal)
    (b : (⟨1, ![2048]⟩ : Shape).Idx → EReal) (n : Fin 8192) (o : Fin 2048) : EReal :=
  (∑ j : Fin 512, x (ix2 n (inBlock (blockOf o) j)) * W (ix2 o (inBlock (blockOf o) j))) + b (ix1 o)

/-- The common result array. -/
def out (x : (⟨2, ![8192, 2048]⟩ : Shape).Idx → EReal) (W : (⟨2, ![2048, 2048]⟩ : Shape).Idx → EReal)
    (b : (⟨1, ![2048]⟩ : Shape).Idx → EReal) : (⟨2, ![8192, 2048]⟩ : Shape).Idx → EReal :=
  fun i => outAt x W b (i 0) (i 1)

theorem out_ix2 (x : (⟨2, ![8192, 2048]⟩ : Shape).Idx → EReal) (W : (⟨2, ![2048, 2048]⟩ : Shape).Idx → EReal)
    (b : (⟨1, ![2048]⟩ : Shape).Idx → EReal) (n : Fin 8192) (o : Fin 2048) : out x W b (ix2 n o) = outAt x W b n o := rfl

end BlockDiag

end
-- ==== Proof.KernelValue.lean ====
/-
  The kernel's result array, as one function of the argument arrays.

  The grid has 4 × 2 points (block k, row half a). At point (k, a) the body reads rows 4096·a … of columns 512·k … of the
  input, the diagonal tile (k, k) of the weight and columns 512·k … of the bias row, and writes `X · Tᵀ + β` to rows
  4096·a … of columns 512·k … of the output. So entry (n, o) of what a point writes back is
    ∑_{j < 512} x[n, 512·k + j] · W[o, 512·k + j] + b[o]   with k = ⌊o / 512⌋,
  which is the common value `BlockDiag.outAt`; the eight blocks tile the output, so the whole array ends at `BlockDiag.out`.
  The bias reaches the region as a one-row matrix (a reshape of the vector), read back here at an index.
-/
import proofs.«166792_j74938589381030_2_alg».proof.Proof.Gen.KernelIdeal.Value
import proofs.«166792_j74938589381030_2_alg».proof.Proof.KernelPay
import proofs.«166792_j74938589381030_2_alg».proof.Proof.Spec
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx BlockDiag
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Row `p` of row half `a`: the row number 4096·a + p. -/
def rowOf (a : Fin 2) (p : Fin 4096) : Fin 8192 := ⟨4096 * a.val + p.val, by have := a.isLt; have := p.isLt; omega⟩

/-- The printed index maps, decided over the eight grid points: the input block moves with the output block, the weight
    tile is the diagonal one of the output's column block, the bias piece is that column block of the one row. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (1 : Fin 2) ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 1 ∧ win0_3.index t (1 : Fin 2) ≤ 3 :=
  (by decide +kernel : ∀ t : Fin grid0.N, _)

/-- Every block of the output is some point's. -/
theorem idx_onto : ∀ (q0 : Fin 2) (q1 : Fin 4), ∃ t : Fin cfg0.N, win0_3.index t = ![q0.val, q1.val] :=
  (by decide +kernel : ∀ (q0 : Fin 2) (q1 : Fin 4), ∃ t : Fin grid0.N, win0_3.index t = ![q0.val, q1.val])

/-! ## The input blocks, read off the argument arrays -/

/-- Entry `y` of the input block at point `t` is the input array at the block's offset plus `y`. -/
theorem iblk0_apply (c : Dev nD) (t : Fin cfg0.N) (y : S4096x512.Idx) (i : S8192x2048.Idx)
    (h0 : (i 0).val = win0_3.index t (0 : Fin 2) * 4096 + (y 0).val)
    (h1 : (i 1).val = win0_3.index t (1 : Fin 2) * 512 + (y 1).val) :
    (iblk m c 0 t : Vec Ideal S4096x512 .f32) y = (m ((c : Thread nD τ).loc main_arg0) : S8192x2048.Idx → EReal) i := by
  obtain ⟨e0, e1, -⟩ := idx_facts t
  unfold iblk
  rw [View.read_apply]
  show V m c main_arg0 _ = _
  refine (congrFun (V_main_arg0 m c) _).trans ?_
  refine congrArg _ ?_
  funext a
  apply Fin.ext
  match a with
  | ⟨0, _⟩ => show win0_0.index t (0 : Fin 2) * 4096 + 1 * (y 0).val = (i 0).val; omega
  | ⟨1, _⟩ => show win0_0.index t (1 : Fin 2) * 512 + 1 * (y 1).val = (i 1).val; omega

/-- Entry `y` of the weight tile at point `t` is the weight array at the diagonal tile's offset plus `y`. -/
theorem iblk1_apply (c : Dev nD) (t : Fin cfg0.N) (y : S512x512.Idx) (i : S2048x2048.Idx)
    (h0 : (i 0).val = win0_3.index t (1 : Fin 2) * 512 + (y 0).val)
    (h1 : (i 1).val = win0_3.index t (1 : Fin 2) * 512 + (y 1).val) :
    (iblk m c 1 t : Vec Ideal S512x512 .f32) y = (m ((c : Thread nD τ).loc main_arg1) : S2048x2048.Idx → EReal) i := by
  obtain ⟨-, -, e2, e3, -⟩ := idx_facts t
  unfold iblk
  rw [View.read_apply]
  show V m c main_arg1 _ = _
  refine (congrFun (V_main_arg1 m c) _).trans ?_
  refine congrArg _ ?_
  funext a
  apply Fin.ext
  match a with
  | ⟨0, _⟩ => show win0_1.index t (0 : Fin 2) * 512 + 1 * (y 0).val = (i 0).val; omega
  | ⟨1, _⟩ => show win0_1.index t (1 : Fin 2) * 512 + 1 * (y 1).val = (i 1).val; omega

/-- The one-row bias matrix the region finds is the bias vector reshaped. -/
theorem V_bias (c : Dev nD) :
    (V m c main_v0 : S1x2048.Idx → EReal)
      = shapeCast S1x2048 (m ((c : Thread nD τ).loc main_arg2) : S2048.Idx → EReal) shapeCasts_S2048_S1x2048 := by
  dsimp only [Gen.V, Gen.hostOps0]
  after_results
  rfl

/-- Entry (0, q) of the bias piece at point `t` is the bias vector at the column block's offset plus `q`. -/
theorem iblk2_apply (c : Dev nD) (t : Fin cfg0.N) (q : Fin 512) (o : Fin 2048)
    (ho : o.val = win0_3.index t (1 : Fin 2) * 512 + q.val) :
    (iblk m c 2 t : Vec Ideal S1x512 .f32) (ix2 (0 : Fin 1) q)
      = (m ((c : Thread nD τ).loc main_arg2) : S2048.Idx → EReal) (ix1 o) := by
  obtain ⟨-, -, -, -, e4, e5, -⟩ := idx_facts t
  unfold iblk
  rw [View.read_apply]
  show V m c main_v0 _ = _
  refine (congrFun (V_bias m c) _).trans ?_
  refine shapeCast_apply _ _ _ (ix1 o) ?_
  rw [Shape.rowMajor_val_one, Shape.rowMajor_val_two]
  show o.val = (win0_2.index t (0 : Fin 2) * 1 + 1 * 0) * 2048 + (win0_2.index t (1 : Fin 2) * 512 + 1 * q.val)
  omega

/-! ## What a point writes back -/

/-- The body's stored value over blocks that ARE the pieces of the argument arrays at row half `a` and column block `k`:
    entry (p, q) is the common value at row 4096·a + p, output feature 512·k + q. -/
theorem block_value (x : S8192x2048.Idx → EReal) (W : S2048x2048.Idx → EReal) (b : S2048.Idx → EReal)
    (X : FVec Ideal S4096x512 .f32) (T : FVec Ideal S512x512 .f32) (β : FVec Ideal S1x512 .f32) (a : Fin 2) (k : Fin 4)
    (hX : ∀ (p : Fin 4096) (j : Fin 512), X (ix2 p j) = x (ix2 (rowOf a p) (inBlock k j)))
    (hT : ∀ (q j : Fin 512), T (ix2 q j) = W (ix2 (inBlock k q) (inBlock k j)))
    (hβ : ∀ q : Fin 512, β (ix2 (0 : Fin 1) q) = b (ix1 (inBlock k q)))
    (p : Fin 4096) (q : Fin 512) :
    k0_pay1 (F := Ideal) X T β (ix2 p q) = outAt x W b (rowOf a p) (inBlock k q) := by
  refine (pay_apply X T β p q).trans ?_
  unfold outAt
  rw [blockOf_inBlock, hβ q]
  refine congrArg (· + b (ix1 (inBlock k q))) ?_
  exact Finset.sum_congr rfl fun j _ => by rw [hX p j, hT q j]

/-- WHAT POINT `t` WRITES BACK is block `t` of the common result array of the arguments as launched. -/
theorem flushed_eq (c : Dev nD) (t : Fin cfg0.N) :
    (dats m 0 c).flushed 3 t = ((cfg0.win 3).blk t).view.read (Elt Ideal)
      (out (m ((c : Thread nD τ).loc main_arg0)) (m ((c : Thread nD τ).loc main_arg1)) (m ((c : Thread nD τ).loc main_arg2))) := by
  rw [Cert.KernelIdeal.Value.flushed3]
  unfold out0_3
  rw [View.canon_unit_zero hz]
  simp only [View.ld_unit_zero (S := S4096x512) hz, View.ld_unit_zero (S := S512x512) hz, View.ld_unit_zero (S := S1x512) hz]
  obtain ⟨-, -, -, -, -, -, b0, b1⟩ := idx_facts t
  funext j
  obtain ⟨p, q, rfl⟩ : ∃ (p : Fin 4096) (q : Fin 512), j = ix2 p q := ⟨j 0, j 1, eq_ix2 j⟩
  have hval := block_value (m ((c : Thread nD τ).loc main_arg0)) (m ((c : Thread nD τ).loc main_arg1)) (m ((c : Thread nD τ).loc main_arg2))
    (iblk m c 0 t) (iblk m c 1 t) (iblk m c 2 t) ⟨win0_3.index t (0 : Fin 2), by omega⟩ ⟨win0_3.index t (1 : Fin 2), by omega⟩
    (fun p j => iblk0_apply m c t (ix2 p j) _
      (by show 4096 * win0_3.index t (0 : Fin 2) + p.val = win0_3.index t (0 : Fin 2) * 4096 + p.val; omega)
      (by show 512 * win0_3.index t (1 : Fin 2) + j.val = win0_3.index t (1 : Fin 2) * 512 + j.val; omega))
    (fun q j => iblk1_apply m c t (ix2 q j) _
      (by show 512 * win0_3.index t (1 : Fin 2) + q.val = win0_3.index t (1 : Fin 2) * 512 + q.val; omega)
      (by show 512 * win0_3.index t (1 : Fin 2) + j.val = win0_3.index t (1 : Fin 2) * 512 + j.val; omega))
    (fun q => iblk2_apply m c t q _
      (by show 512 * win0_3.index t (1 : Fin 2) + q.val = win0_3.index t (1 : Fin 2) * 512 + q.val; omega))
    p q
  refine hval.trans ?_
  show outAt _ _ _ _ _ = outAt _ _ _ ((((cfg0.win 3).blk t).view.emb (ix2 p q)) 0) ((((cfg0.win 3).blk t).view.emb (ix2 p q)) 1)
  congr 1
  · apply Fin.ext
    show 4096 * win0_3.index t (0 : Fin 2) + p.val = win0_3.index t (0 : Fin 2) * 4096 + 1 * p.val
    omega
  · apply Fin.ext
    show 512 * win0_3.index t (1 : Fin 2) + q.val = win0_3.index t (1 : Fin 2) * 512 + 1 * q.val
    omega

/-! ## The blocks tile the output -/

/-- An index of the array is in point `t`'s block iff each coordinate is in the block's range on its axis. -/
theorem mem_blk (t : Fin cfg0.N) (i : S8192x2048.Idx) :
    i ∈ ((cfg0.win 3).blk t).view.set ↔ ∀ a : Fin 2, win0_3.index t a * S4096x512.size a ≤ (i a).val ∧ (i a).val < win0_3.index t a * S4096x512.size a + S4096x512.size a := by
  show i ∈ ((View.whole main_v1).slice (win0_3.rect t)).set ↔ _
  rw [View.set_slice_whole, Rect.mem_set_unit]
  exact Iff.rfl

/-- Every index of the output lies in the block of the point (⌊column / 512⌋, ⌊row / 4096⌋). -/
theorem cover (i : S8192x2048.Idx) : ∃ t : Fin cfg0.N, (cfg0.win 3).flush t = true ∧ i ∈ ((cfg0.win 3).blk t).view.set := by
  have hi0 : (i 0).val < 8192 := (i 0).isLt
  have hi1 : (i 1).val < 2048 := (i 1).isLt
  obtain ⟨t, ht⟩ := idx_onto ⟨(i 0).val / 4096, by omega⟩ ⟨(i 1).val / 512, by omega⟩
  have q0 : win0_3.index t (0 : Fin 2) = (i 0).val / 4096 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 512 ≤ (i 1).val ∧ (i 1).val < win0_3.index t (1 : Fin 2) * 512 + 512; omega

/-- THE ARRAY after the run is the common result array of the arguments as launched. -/
theorem final (c : Dev nD) :
    (dats m 0 c).arrAt 3 cfg0.N
      = out (m ((c : Thread nD τ).loc main_arg0)) (m ((c : Thread nD τ).loc main_arg1)) (m ((c : Thread nD τ).loc main_arg2)) :=
  (dats m 0 c).arrAt_eq_of_cover 3 _ (fun t _ => flushed_eq m c t) cover

/-- The run, read: the result array at the common result array of the arguments, the arguments unchanged. -/
theorem run : θ_run defs (onTc (τ := τ) (main (F := Ideal))) ⟨m, fun _ => 0, ρ⟩ fun r => ∀ c : Dev nD,
      r.2.mem ((c : Thread nD τ).loc main_v1)
          = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Hand

end
-- ==== Proof.RefTerm.lean ====
/-
  The reference's result as ONE term of its three argument arrays.

  The reference multiplies the transposed weight by a 0/1 mask and then takes one dense product:
    out[n, o] = ∑_{i < 2048} x[n, i] · (W[o, i] · mask[i, o]) + b[o],   mask[i, o] = 1 if ⌊i / 512⌋ = ⌊o / 512⌋ else 0.
  The mask is built from two copies of the integer vector ⌊iota / 512⌋ (`blockId`), each computed by jnp's
  floor division: the truncated quotient, lowered by one where the signs differ and the remainder is not zero.
-/
import proofs.«166792_j74938589381030_2_alg».proof.ReferenceIdeal
import proofs.«166792_j74938589381030_2_alg».proof.Proof.Gen.ReferenceIdeal

noncomputable section

namespace Cert.ReferenceIdeal.Hand

open Cert.ReferenceIdeal Cert.ReferenceIdeal.Gen Idealize.ShloMosaic

variable {F : FTy → Type} [FloatOps F]

/-- jnp's floor division of an integer vector by the scalar 512, operation by operation: the truncated quotient `q`,
    and `q - 1` where the operands' signs differ and the remainder is not zero. -/
def floorDiv512 (a : IVec S2048 32) : IVec S2048 32 :=
  select
    (andi
      (cmpi .ne (signi a) (broadcastInDim S2048 ![] bcast_S_S2048 (signi (id (constantI S_ 32 512#32)))))
      (cmpi .ne (Host.remsi a (broadcastInDim S2048 ![] bcast_S_S2048 (id (constantI S_ 32 512#32))))
        (broadcastInDim S2048 ![] bcast_S_S2048 (constantI S_ 32 0#32))))
    (subi (Host.divsi a (broadcastInDim S2048 ![] bcast_S_S2048 (id (constantI S_ 32 512#32))))
      (broadcastInDim S2048 ![] bcast_S_S2048 (constantI S_ 32 1#32)))
    (Host.divsi a (broadcastInDim S2048 ![] bcast_S_S2048 (id (constantI S_ 32 512#32))))

/-- The block number ⌊i / 512⌋ of each of the 2048 features, as the program computes it from an iota. -/
def blockId : IVec S2048 32 := floorDiv512 (iotaInDim S2048 32 0)

/-- The 0/1 mask as a float matrix: entry (i, o) compares the block numbers of input feature `i` and output feature `o`. -/
def mask : FVec F S2048x2048 .f32 :=
  uitofp .f32
    (cmpi .eq
      (broadcastInDim S2048x2048 ![0, 1] bcast_S2048x1_S2048x2048_0_1 (broadcastInDim S2048x1 ![0] bcast_S2048_S2048x1_0 blockId))
      (broadcastInDim S2048x2048 ![0, 1] bcast_S1x2048_S2048x2048_0_1 (broadcastInDim S1x2048 ![1] bcast_S2048_S1x2048_1 blockId)))

/-- The reference's result: x · (Wᵀ ∘ mask) + b laid along every row. -/
def refOut (x : FVec F S8192x2048 .f32) (W : FVec F S2048x2048 .f32) (b : FVec F S2048 .f32) : FVec F S8192x2048 .f32 :=
  addf
    (Host.dotGeneral dot_S8192x2048_S2048x2048_S8192x2048_1_0_0_1_n_n none x
      (mulf (transpose S2048x2048 [1, 0] W transposes_S2048x2048_S2048x2048_1_0) (mask (F := F))))
    (broadcastInDim S8192x2048 ![0, 1] bcast_S1x2048_S8192x2048_0_1 (broadcastInDim S1x2048 ![1] bcast_S2048_S1x2048_1 b))

end Cert.ReferenceIdeal.Hand

end
-- ==== Proof.RefRun.lean ====
/-
  The reference program's run: its @main is a straight line of fifty host operations (the two calls of jnp's floor
  division laid out in place, seventeen operations each), so every weakly fair execution terminates with each buffer
  at the operations' composed value of the launch contents; the result buffer's composed value is `refOut` of the three
  argument arrays, and no operation writes an argument.
-/
import proofs.«166792_j74938589381030_2_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call of the floor division replaced by the callee's operations over that call's buffers. -/
abbrev ops : List (HloOp τ sig (Elt F)) :=
  [ nullary main_v0 (iotaInDim S2048 32 0),
    nullary main_c (constantI S_ 32 512#32),
    TRef.unary (.of main_c) main_call0.v0 id,
    TRef.unary main_call0.v0 main_call0.v1 (broadcastInDim S2048 ![] bcast_S_S2048),
    TRef.binary (.of main_v0) main_call0.v1 main_call0.v2 Host.divsi,
    TRef.unary (.of main_v0) main_call0.v3 signi,
    TRef.unary main_call0.v0 main_call0.v4 signi,
    TRef.unary main_call0.v4 main_call0.v5 (broadcastInDim S2048 ![] bcast_S_S2048),
    TRef.binary main_call0.v3 main_call0.v5 main_call0.v6 (cmpi .ne),
    TRef.unary main_call0.v0 main_call0.v7 (broadcastInDim S2048 ![] bcast_S_S2048),
    TRef.binary (.of main_v0) main_call0.v7 main_call0.v8 Host.remsi,
    TRef.nullary main_call0.c (constantI S_ 32 0#32),
    TRef.unary main_call0.c main_call0.v9 (broadcastInDim S2048 ![] bcast_S_S2048),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S2048 ![] bcast_S_S2048),
    TRef.binary main_call0.v2 main_call0.v12 main_call0.v13 subi,
    TRef.ternary main_call0.v11 main_call0.v13 main_call0.v2 main_call0.call0.v0 select,
    nullary main_v2 (iotaInDim S2048 32 0),
    nullary main_c_0 (constantI S_ 32 512#32),
    TRef.unary (.of main_c_0) main_call1.v0 id,
    TRef.unary main_call1.v0 main_call1.v1 (broadcastInDim S2048 ![] bcast_S_S2048),
    TRef.binary (.of main_v2) main_call1.v1 main_call1.v2 Host.divsi,
    TRef.unary (.of main_v2) main_call1.v3 signi,
    TRef.unary main_call1.v0 main_call1.v4 signi,
    TRef.unary main_call1.v4 main_call1.v5 (broadcastInDim S2048 ![] bcast_S_S2048),
    TRef.binary main_call1.v3 main_call1.v5 main_call1.v6 (cmpi .ne),
    TRef.unary main_call1.v0 main_call1.v7 (broadcastInDim S2048 ![] bcast_S_S2048),
    TRef.binary (.of main_v2) main_call1.v7 main_call1.v8 Host.remsi,
    TRef.nullary main_call1.c (constantI S_ 32 0#32),
    TRef.unary main_call1.c main_call1.v9 (broadcastInDim S2048 ![] bcast_S_S2048),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S2048 ![] bcast_S_S2048),
    TRef.binary main_call1.v2 main_call1.v12 main_call1.v13 subi,
    TRef.ternary main_call1.v11 main_call1.v13 main_call1.v2 main_call1.call0.v0 select,
    unary main_v1 main_v4 (broadcastInDim S2048x1 ![0] bcast_S2048_S2048x1_0 : (⟨S2048, .i32⟩ : BufTy).Contents (Elt F) → (⟨S2048x1, .i32⟩ : BufTy).Contents (Elt F)),
    unary main_v3 main_v5 (broadcastInDim S1x2048 ![1] bcast_S2048_S1x2048_1 : (⟨S2048, .i32⟩ : BufTy).Contents (Elt F) → (⟨S1x2048, .i32⟩ : BufTy).Contents (Elt F)),
    unary main_v4 main_v6 (broadcastInDim S2048x2048 ![0, 1] bcast_S2048x1_S2048x2048_0_1 : (⟨S2048x1, .i32⟩ : BufTy).Contents (Elt F) → (⟨S2048x2048, .i32⟩ : BufTy).Contents (Elt F)),
    unary main_v5 main_v7 (broadcastInDim S2048x2048 ![0, 1] bcast_S1x2048_S2048x2048_0_1 : (⟨S1x2048, .i32⟩ : BufTy).Contents (Elt F) → (⟨S2048x2048, .i32⟩ : BufTy).Contents (Elt F)),
    binary main_v6 main_v7 main_v8 (cmpi .eq : (⟨S2048x2048, .i32⟩ : BufTy).Contents (Elt F) → (⟨S2048x2048, .i32⟩ : BufTy).Contents (Elt F) → (⟨S2048x2048, .i1⟩ : BufTy).Contents (Elt F)),
    unary main_v8 main_v9 (uitofp .f32 : (⟨S2048x2048, .i1⟩ : BufTy).Contents (Elt F) → (⟨S2048x2048, .f32⟩ : BufTy).Contents (Elt F)),
    unary main_arg1 main_v10 ((transpose S2048x2048 [1, 0] · transposes_S2048x2048_S2048x2048_1_0) : (⟨S2048x2048, .f32⟩ : BufTy).Contents (Elt F) → (⟨S2048x2048, .f32⟩ : BufTy).Contents (Elt F)),
    binary main_v10 main_v9 main_v11 (mulf : (⟨S2048x2048, .f32⟩ : BufTy).Contents (Elt F) → (⟨S2048x2048, .f32⟩ : BufTy).Contents (Elt F) → (⟨S2048x2048, .f32⟩ : BufTy).Contents (Elt F)),
    binary main_arg0 main_v11 main_v12 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    unary main_arg2 main_v13 (broadcastInDim S1x2048 ![1] bcast_S2048_S1x2048_1 : (⟨S2048, .f32⟩ : BufTy).Contents (Elt F) → (⟨S1x2048, .f32⟩ : BufTy).Contents (Elt F)),
    unary main_v13 main_v14 (broadcastInDim S8192x2048 ![0, 1] bcast_S1x2048_S8192x2048_0_1 : (⟨S1x2048, .f32⟩ : BufTy).Contents (Elt F) → (⟨S8192x2048, .f32⟩ : BufTy).Contents (Elt F)),
    binary main_v12 main_v14 main_v15 (addf : (⟨S8192x2048, .f32⟩ : BufTy).Contents (Elt F) → (⟨S8192x2048, .f32⟩ : BufTy).Contents (Elt F) → (⟨S8192x2048, .f32⟩ : BufTy).Contents (Elt F)) ]

set_option maxRecDepth 4096 in
/-- @main is that straight line: the callee's definitions unfolded at the two calls, sequencing reassociated. -/
theorem main_eq (c : Dev nD) : main (F := F) c = seq ops := by
  simp only [main, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [List.Forall, nullary_bufs_sub, unary_bufs_sub, binary_bufs_sub, ternary_bufs_sub, and_self]

/-- Every TensorCore buffer after the run, as the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The result buffer's composed value is `refOut` of the argument buffers' contents. -/
theorem out_eq (V : Valuation τ sig (Elt F)) :
    after ops V (Proc.devRef .tc main_v15)
      = refOut (F := F) (V (Proc.devRef .tc main_arg0)) (V (Proc.devRef .tc main_arg1)) (V (Proc.devRef .tc main_arg2)) := by
  after_results_simp
  rfl

theorem arg0_eq (V : Valuation τ sig (Elt F)) : after ops V (Proc.devRef .tc main_arg0) = V (Proc.devRef .tc main_arg0) := by
  after_results_simp
theorem arg1_eq (V : Valuation τ sig (Elt F)) : after ops V (Proc.devRef .tc main_arg1) = V (Proc.devRef .tc main_arg1) := by
  after_results_simp
theorem arg2_eq (V : Valuation τ sig (Elt F)) : after ops V (Proc.devRef .tc main_arg2) = V (Proc.devRef .tc main_arg2) := by
  after_results_simp

/-- The run, read: the result at `refOut` of the arguments as launched, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
          = refOut (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v15).trans (out_eq _),
      (h c main_arg0).trans (arg0_eq _), (h c main_arg1).trans (arg1_eq _), (h c main_arg2).trans (arg2_eq _)⟩)
    (run_fold m ρ)

end Cert.ReferenceIdeal.Hand

end
-- ==== Proof.RefMask.lean ====
/-
  The reference's mask, entry by entry.

  jnp's floor division of the iota by 512 is, for the 2048 nonnegative feature numbers, the plain quotient ⌊i / 512⌋: the
  correction term (quotient minus one) applies only where the operands' signs differ AND the remainder is not zero — for
  i = 0 the signs differ (0 against +1) but the remainder is 0, for i > 0 the signs agree — so it never applies. Entry
  (i, o) of the mask therefore compares ⌊i / 512⌋ with ⌊o / 512⌋ and is 1 where they agree, 0 elsewhere.
-/
import proofs.«166792_j74938589381030_2_alg».proof.Proof.RefTerm
import proofs.«166792_j74938589381030_2_alg».proof.Proof.Spec
import Idealize.ShloMosaic.Lib.Pipeline.Value
import Idealize.ShloMosaic.Lib.ValueIdx

noncomputable section

namespace Cert.ReferenceIdeal.Hand

open Cert.ReferenceIdeal Cert.ReferenceIdeal.Gen Idealize.ShloMosaic Idealize.ShloMosaic.ValueIdx BlockDiag

/-- The sign of a 32-bit word as a word: 0, -1 or 1. -/
def signWord (a : BitVec 32) : BitVec 32 := if a = 0 then 0 else if a.msb then -1 else 1

/-- jnp's floor division by 512 on ONE 32-bit word, operation by operation. -/
def floorDivWord (a : BitVec 32) : BitVec 32 :=
  Scalar.select
    (IntOp.andi
      (IntOp.cmpi .ne (signWord a) (signWord 512#32))
      (IntOp.cmpi .ne (IntOp.remsi .host a 512#32) 0#32))
    (IntOp.subi (IntOp.divsi .host a 512#32) 1#32)
    (IntOp.divsi .host a 512#32)

/-- The vector operations are entrywise: entry i of the block-number vector is the word computation at the word i. -/
theorem blockId_eq_word (i : Fin 2048) : blockId (ix1 i) = floorDivWord (BitVec.ofNat 32 i.val) := rfl

/-- On each of the 2048 feature numbers the word computation gives the block number (checked by evaluation). -/
theorem floorDivWord_eq : ∀ i : Fin 2048, floorDivWord (BitVec.ofNat 32 i.val) = BitVec.ofNat 32 (blockOf i).val := by
  decide +kernel

/-- Two block numbers are the same word exactly when they are the same block. -/
theorem word_eq_iff : ∀ k k' : Fin 4, (BitVec.ofNat 32 k.val = BitVec.ofNat 32 k'.val) ↔ k = k' := by
  decide

theorem blockId_apply (i : Fin 2048) : blockId (ix1 i) = BitVec.ofNat 32 (blockOf i).val :=
  (blockId_eq_word i).trans (floorDivWord_eq i)

/-- A vector laid along the columns of a square matrix (as a column, then across): entry (i, o) is the vector's entry i. -/
theorem alongRows_apply (v : IVec S2048 32) (i o : Fin 2048) :
    broadcastInDim S2048x2048 ![0, 1] bcast_S2048x1_S2048x2048_0_1 (broadcastInDim S2048x1 ![0] bcast_S2048_S2048x1_0 v) (ix2 i o)
      = v (ix1 i) :=
  (broadcastInDim_apply _ _ _ (ix2 i o) (ix2 i (0 : Fin 1)) (fun a => by
      match a with
      | ⟨0, _⟩ => rfl
      | ⟨1, _⟩ => rfl)).trans
    (broadcastInDim_apply _ _ v (ix2 i (0 : Fin 1)) (ix1 i) (fun a => by
      match a with
      | ⟨0, _⟩ => rfl))

/-- A vector laid along the rows of a square matrix (as a row, then down): entry (i, o) is the vector's entry o. -/
theorem alongCols_apply (v : IVec S2048 32) (i o : Fin 2048) :
    broadcastInDim S2048x2048 ![0, 1] bcast_S1x2048_S2048x2048_0_1 (broadcastInDim S1x2048 ![1] bcast_S2048_S1x2048_1 v) (ix2 i o)
      = v (ix1 o) :=
  (broadcastInDim_apply _ _ _ (ix2 i o) (ix2 (0 : Fin 1) o) (fun a => by
      match a with
      | ⟨0, _⟩ => rfl
      | ⟨1, _⟩ => rfl)).trans
    (broadcastInDim_apply _ _ v (ix2 (0 : Fin 1) o) (ix1 o) (fun a => by
      match a with
      | ⟨0, _⟩ => rfl))

/-- The mask at the ideal values: 1 where input feature i and output feature o lie in the same block, 0 elsewhere. -/
theorem mask_apply (i o : Fin 2048) :
    mask (F := Ideal) (ix2 i o) = if blockOf i = blockOf o then (1 : EReal) else 0 := by
  show (((IntOp.cmpi .eq
      (broadcastInDim S2048x2048 ![0, 1] bcast_S2048x1_S2048x2048_0_1 (broadcastInDim S2048x1 ![0] bcast_S2048_S2048x1_0 blockId) (ix2 i o))
      (broadcastInDim S2048x2048 ![0, 1] bcast_S1x2048_S2048x2048_0_1 (broadcastInDim S1x2048 ![1] bcast_S2048_S1x2048_1 blockId) (ix2 i o))).toNat : ℝ) : EReal) = _
  rw [alongRows_apply, alongCols_apply, blockId_apply, blockId_apply]
  by_cases h : blockOf i = blockOf o
  · rw [if_pos h, h]
    simp [IntOp.cmpi]
  · rw [if_neg h]
    have hne : ¬ (BitVec.ofNat 32 (blockOf i).val = BitVec.ofNat 32 (blockOf o).val) := fun e => h ((word_eq_iff _ _).mp e)
    simp [IntOp.cmpi, hne]

end Cert.ReferenceIdeal.Hand

end
-- ==== Proof.RefRead.lean ====
/-
  The reference's result, entry by entry, is the common result array.

  Entry (n, o) of the reference's dense product is ∑_{i < 2048} x[n, i] · (Wᵀ[i, o] · mask[i, o]) with Wᵀ[i, o] = W[o, i]
  and mask[i, o] = 1 exactly where i lies in o's block of 512 features; the masked sum keeps the block's 512 terms
  (`BlockDiag.masked_dot`), and the bias laid along the rows adds b[o].
-/
import proofs.«166792_j74938589381030_2_alg».proof.Proof.RefMask
import proofs.«166792_j74938589381030_2_alg».proof.Proof.LibContract

noncomputable section

namespace Cert.ReferenceIdeal.Hand

open Cert.ReferenceIdeal Cert.ReferenceIdeal.Gen Idealize.ShloMosaic Idealize.ShloMosaic.ValueIdx BlockDiag

/-- The dense product's dimension numbers: columns of the input against rows of the masked, transposed weight. -/
abbrev dotR : DotDims S8192x2048 S2048x2048 S8192x2048 := dot_S8192x2048_S2048x2048_S8192x2048_1_0_0_1_n_n

/-- At output entry (n, o) and contraction coordinate i the input is read at (n, i) … -/
theorem lhs_idx (n : Fin 8192) (o i : Fin 2048) :
    dotR.lhsIdx (ix2 n o) ((contrEquiv1 dotR 2048 rfl rfl).symm i) = ix2 n i := by
  funext a
  apply Fin.ext
  match a with
  | ⟨0, _⟩ => rfl
  | ⟨1, _⟩ => exact (dotR.lhsIdx_val_of_single (cl := (1 : Fin 2)) rfl _ _).trans (contrEquiv1_symm_val dotR 2048 rfl rfl i)

/-- … and the masked, transposed weight at (i, o). -/
theorem rhs_idx (n : Fin 8192) (o i : Fin 2048) :
    dotR.rhsIdx (ix2 n o) ((contrEquiv1 dotR 2048 rfl rfl).symm i) = ix2 i o := by
  funext a
  apply Fin.ext
  match a with
  | ⟨0, _⟩ => exact (dotR.rhsIdx_val_of_single (cr := (0 : Fin 2)) rfl _ _).trans (contrEquiv1_symm_val dotR 2048 rfl rfl i)
  | ⟨1, _⟩ => rfl

/-- The transposed weight at (i, o) is the weight at (o, i). -/
theorem transpose_apply_io (W : FVec Ideal S2048x2048 .f32) (i o : Fin 2048) :
    transpose S2048x2048 [1, 0] W transposes_S2048x2048_S2048x2048_1_0 (ix2 i o) = W (ix2 o i) :=
  transpose_apply [1, 0] W _ (ix2 i o) (ix2 o i) (fun b => by
    match b with
    | ⟨0, _⟩ => rfl
    | ⟨1, _⟩ => rfl)

/-- The bias vector laid along every row (as a one-row matrix, then down the rows): entry (n, o) is the bias entry o. -/
theorem bias_apply (b : FVec Ideal S2048 .f32) (n : Fin 8192) (o : Fin 2048) :
    broadcastInDim S8192x2048 ![0, 1] bcast_S1x2048_S8192x2048_0_1 (broadcastInDim S1x2048 ![1] bcast_S2048_S1x2048_1 b) (ix2 n o)
      = b (ix1 o) :=
  (broadcastInDim_apply _ _ _ (ix2 n o) (ix2 (0 : Fin 1) o) (fun a => by
      match a with
      | ⟨0, _⟩ => rfl
      | ⟨1, _⟩ => rfl)).trans
    (broadcastInDim_apply _ _ b (ix2 (0 : Fin 1) o) (ix1 o) (fun a => by
      match a with
      | ⟨0, _⟩ => rfl))

/-- The reference's result at the ideal values is the common result array. -/
theorem refOut_eq (x : FVec Ideal S8192x2048 .f32) (W : FVec Ideal S2048x2048 .f32) (b : FVec Ideal S2048 .f32) :
    refOut (F := Ideal) x W b = out x W b := by
  funext j
  obtain ⟨n, o, rfl⟩ : ∃ (n : Fin 8192) (o : Fin 2048), j = ix2 n o := ⟨j 0, j 1, eq_ix2 j⟩
  rw [out_ix2]
  have hd : FloatOps.dotGeneral (F := Ideal) dotR none .single x
        (mulf (transpose S2048x2048 [1, 0] W transposes_S2048x2048_S2048x2048_1_0) (mask (F := Ideal))) (ix2 n o)
      = ∑ i : Fin 2048, x (ix2 n i) * (W (ix2 o i) * (if blockOf i = blockOf o then (1 : EReal) else 0)) :=
    ContractSingle.dotGeneral_single dotR none .single 2048 rfl rfl x _ (ix2 n o) _ _
      (fun i => congrArg x (lhs_idx n o i))
      (fun i => by
        rw [rhs_idx]
        show transpose S2048x2048 [1, 0] W transposes_S2048x2048_S2048x2048_1_0 (ix2 i o) * mask (F := Ideal) (ix2 i o) = _
        rw [transpose_apply_io, mask_apply])
  exact congrArg₂ (· + ·) (hd.trans (masked_dot (fun i => x (ix2 n i)) (fun i => W (ix2 o i)) (blockOf o))) (bias_apply b n o)

end Cert.ReferenceIdeal.Hand

end
-- ==== Proof.lean ====
/-
  The certificate of the block-diagonal linear layer.

  The kernel computes, for each of four column blocks k and each row n, the product of row n's k-th piece of 512 input
  features with the diagonal tile (k, k) of the weight (contracting the tile's second axis, so the tile acts transposed),
  plus the bias. The reference multiplies the transposed weight by a 0/1 block-diagonal mask and takes one dense
  2048-wide product plus the bias. At the ideal values both are
    out[n, o] = ∑_{j < 512} x[n, 512·k + j] · W[o, 512·k + j] + b[o],   k = ⌊o / 512⌋,
  because a product with a mask entry 0 is 0 and with 1 is the factor itself on every extended real — the law needs no
  finiteness, so the precondition is never opened. The three frames are the two programs' runs with the result dropped;
  the idealization rewrote nothing, so `preserves` is trivial; `algebraic` sets the kernel's run (each output block
  read off the argument arrays, the eight blocks tiling the output) beside the reference's run (its fifty host
  operations composed and read at an entry).
-/
import proofs.«166792_j74938589381030_2_alg».proof.Defs
import proofs.«166792_j74938589381030_2_alg».proof.Proof.Gen.Kernel
import proofs.«166792_j74938589381030_2_alg».proof.Proof.Gen.Kernel.Skeleton
import proofs.«166792_j74938589381030_2_alg».proof.Proof.Gen.Kernel.Launch
import proofs.«166792_j74938589381030_2_alg».proof.Proof.Gen.Kernel.Points
import proofs.«166792_j74938589381030_2_alg».proof.Proof.Gen.Kernel.Frame
import proofs.«166792_j74938589381030_2_alg».proof.Proof.Gen.KernelIdeal
import proofs.«166792_j74938589381030_2_alg».proof.Proof.Gen.KernelIdeal.Skeleton
import proofs.«166792_j74938589381030_2_alg».proof.Proof.Gen.KernelIdeal.Launch
import proofs.«166792_j74938589381030_2_alg».proof.Proof.Gen.KernelIdeal.Points
import proofs.«166792_j74938589381030_2_alg».proof.Proof.Gen.KernelIdeal.Frame
import proofs.«166792_j74938589381030_2_alg».proof.Proof.Gen.KernelIdeal.Value
import proofs.«166792_j74938589381030_2_alg».proof.Proof.Gen.ReferenceIdeal
import proofs.«166792_j74938589381030_2_alg».proof.Proof.Gen.Pre_finite_inputs
import proofs.«166792_j74938589381030_2_alg».proof.Proof.KernelValue
import proofs.«166792_j74938589381030_2_alg».proof.Proof.RefRun
import proofs.«166792_j74938589381030_2_alg».proof.Proof.RefRead
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations, none of which writes an argument. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- From memories agreeing on the arguments the kernel's result array ends at the common result array (its blocks read
    off the arguments) and the reference's at the masked dense product plus bias, which is the same array entry by entry. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  exact Cert.ReferenceIdeal.Hand.refOut_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
